-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x128 : Shape := ⟨3, ![16, 16384, 128]⟩
abbrev S16x128x16 : Shape := ⟨3, ![16, 128, 16]⟩
abbrev S_ : Shape := ⟨0, ![]⟩

class Facts : Prop where
  bcast_S_S16x16384x128 : S_.BroadcastsInDim S16x16384x128 (![] : Fin 0 → Fin S16x16384x128.rank)
  reducesTo_S16x16384x128_S_d0_1_2 : S16x16384x128.ReducesTo [0, 1, 2] S_
  h_S_ : 0 < S_.numel
  bcast_S_S16x128x16 : S_.BroadcastsInDim S16x128x16 (![] : Fin 0 → Fin S16x128x16.rank)
  reducesTo_S16x128x16_S_d0_1_2 : S16x128x16.ReducesTo [0, 1, 2] S_

variable [Facts]

def fn {F : FTy → Type} [FloatOps F] (main_arg0 : FVec F S16x16384x128 .f32) (main_arg1 : FVec F S16x128x16 .f32) : IVec S_ 1 :=
  let main_v0 : FVec F S16x16384x128 .f32 := Host.absf main_arg0
  let main_cst : FVec F S_ .f32 := constant S_ .f32 0x7F800000#32
  let main_v1 : FVec F S16x16384x128 .f32 := broadcastInDim S16x16384x128 ![] bcast_S_S16x16384x128 main_cst
  let main_v2 : IVec S16x16384x128 1 := cmpf .olt main_v0 main_v1
  let main_c : IVec S_ 1 := constantI S_ 1 1#1
  let main_v3 : IVec S_ 1 := (fun x v => Host.reduce IntOp.andi x v reducesTo_S16x16384x128_S_d0_1_2 h_S_) main_v2 main_c
  let main_v4 : FVec F S16x128x16 .f32 := Host.absf main_arg1
  let main_cst_0 : FVec F S_ .f32 := constant S_ .f32 0x7F800000#32
  let main_v5 : FVec F S16x128x16 .f32 := broadcastInDim S16x128x16 ![] bcast_S_S16x128x16 main_cst_0
  let main_v6 : IVec S16x128x16 1 := cmpf .olt main_v4 main_v5
  let main_c_1 : IVec S_ 1 := constantI S_ 1 1#1
  let main_v7 : IVec S_ 1 := (fun x v => Host.reduce IntOp.andi x v reducesTo_S16x128x16_S_d0_1_2 h_S_) main_v6 main_c_1
  let main_v8 : IVec S_ 1 := andi main_v3 main_v7
  main_v8
-- ==== Kernel.lean ====
abbrev S16x16384x128 : Shape := ⟨3, ![16, 16384, 128]⟩
abbrev S16x128x16 : Shape := ⟨3, ![16, 128, 16]⟩
abbrev S16x16384x16 : Shape := ⟨3, ![16, 16384, 16]⟩
abbrev S1x2048x128 : Shape := ⟨3, ![1, 2048, 128]⟩
abbrev S1x128x16 : Shape := ⟨3, ![1, 128, 16]⟩
abbrev S1x16384x16 : Shape := ⟨3, ![1, 16384, 16]⟩
abbrev S128x16 : Shape := ⟨2, ![128, 16]⟩
abbrev S2048x128 : Shape := ⟨2, ![2048, 128]⟩
abbrev S2048x16 : Shape := ⟨2, ![2048, 16]⟩
abbrev S1x2048x16 : Shape := ⟨3, ![1, 2048, 16]⟩

abbrev nBuf : Space → Nat
  | .hbm => 3
  | .vmem => 20
  | .smem => 0
  | _ => 0

abbrev bufTy : (tb : Table) → Fin (tcTables nBuf tb) → BufTy
  | .hbm, ⟨0, _⟩ => ⟨S16x16384x128, .f32⟩
  | .hbm, ⟨1, _⟩ => ⟨S16x128x16, .f32⟩
  | .hbm, ⟨2, _⟩ => ⟨S16x16384x16, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x128x16, .f32⟩
  | .local _ .vmem, ⟨17, _⟩ => ⟨S1x128x16, .f32⟩
  | .local _ .vmem, ⟨18, _⟩ => ⟨S1x16384x16, .f32⟩
  | .local _ .vmem, ⟨19, _⟩ => ⟨S1x16384x16, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![arg0.toNat, c4_i32.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![arg0.toNat, c5_i32.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![arg0.toNat, c6_i32.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![arg0.toNat, c7_i32.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16384x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x16384x16_S1x2048x16_0_0_0 : ∀ a, (![0, 0, 0] : Fin 3 → Nat) a + S1x2048x16.size a ≤ S1x16384x16.size a
  h_S1x2048x16 : 0 < S1x2048x16.numel
  shapeCasts_S1x2048x16_S2048x16 : S1x2048x16.ShapeCasts S2048x16
  shapeCasts_S2048x16_S1x2048x16 : S2048x16.ShapeCasts S1x2048x16
  inb_S1x16384x16_S1x2048x16_0_2048_0 : ∀ a, (![0, 2048, 0] : Fin 3 → Nat) a + S1x2048x16.size a ≤ S1x16384x16.size a
  inb_S1x16384x16_S1x2048x16_0_4096_0 : ∀ a, (![0, 4096, 0] : Fin 3 → Nat) a + S1x2048x16.size a ≤ S1x16384x16.size a
  inb_S1x16384x16_S1x2048x16_0_6144_0 : ∀ a, (![0, 6144, 0] : Fin 3 → Nat) a + S1x2048x16.size a ≤ S1x16384x16.size a
  inb_S1x16384x16_S1x2048x16_0_8192_0 : ∀ a, (![0, 8192, 0] : Fin 3 → Nat) a + S1x2048x16.size a ≤ S1x16384x16.size a
  inb_S1x16384x16_S1x2048x16_0_10240_0 : ∀ a, (![0, 10240, 0] : Fin 3 → Nat) a + S1x2048x16.size a ≤ S1x16384x16.size a
  inb_S1x16384x16_S1x2048x16_0_12288_0 : ∀ a, (![0, 12288, 0] : Fin 3 → Nat) a + S1x2048x16.size a ≤ S1x16384x16.size a
  inb_S1x16384x16_S1x2048x16_0_14336_0 : ∀ a, (![0, 14336, 0] : Fin 3 → Nat) a + S1x2048x16.size a ≤ S1x16384x16.size a
  dot_S2048x128_S128x16_S2048x16_1_0_0_1_n_n_wf : DotDims.WF S2048x128 S128x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x16384x128.size a
  hwx0_0 : ∀ i : grid0.Coords, EltTy.bits .f32 = 32 ∨ (Rect.block (s := S16x16384x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x16384x128.size a
  hwx0_1 : ∀ i : grid0.Coords, EltTy.bits .f32 = 32 ∨ (Rect.block (s := S16x16384x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x16384x128.size a
  hwx0_2 : ∀ i : grid0.Coords, EltTy.bits .f32 = 32 ∨ (Rect.block (s := S16x16384x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x16384x128.size a
  hwx0_3 : ∀ i : grid0.Coords, EltTy.bits .f32 = 32 ∨ (Rect.block (s := S16x16384x128) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x16384x128.size a
  hwx0_4 : ∀ i : grid0.Coords, EltTy.bits .f32 = 32 ∨ (Rect.block (s := S16x16384x128) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S16x16384x128.size a
  hwx0_5 : ∀ i : grid0.Coords, EltTy.bits .f32 = 32 ∨ (Rect.block (s := S16x16384x128) S1x2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S16x16384x128.size a
  hwx0_6 : ∀ i : grid0.Coords, EltTy.bits .f32 = 32 ∨ (Rect.block (s := S16x16384x128) S1x2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S16x16384x128.size a
  hwx0_7 : ∀ i : grid0.Coords, EltTy.bits .f32 = 32 ∨ (Rect.block (s := S16x16384x128) S1x2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x16.size a ≤ S16x128x16.size a
  hwx0_8 : ∀ i : grid0.Coords, EltTy.bits .f32 = 32 ∨ (Rect.block (s := S16x128x16) S1x128x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16384x16.size a ≤ S16x16384x16.size a
  hwx0_9 : ∀ i : grid0.Coords, EltTy.bits .f32 = 32 ∨ (Rect.block (s := S16x16384x16) S1x16384x16.size (cc0_transform_9 i) (hinb0_9 i)).WholeWords (EltTy.packing .f32)

variable [Facts₀]

def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1x2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1x2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S1x2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S1x128x16.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x16384x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x16384x128 : Shape := ⟨3, ![16, 16384, 128]⟩
abbrev S16x128x16 : Shape := ⟨3, ![16, 128, 16]⟩
abbrev S16x16384x16 : Shape := ⟨3, ![16, 16384, 16]⟩

abbrev nBuf : Space → Nat
  | .hbm => 3
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S16x128x16, .f32⟩
  | .hbm, ⟨2, _⟩ => ⟨S16x16384x16, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x16384x128_S16x128x16_S16x16384x16_2_1_1_2_0_0_wf : DotDims.WF S16x16384x128 S16x128x16 S16x16384x16 [2] [1] [1] [2] [0] [0]

variable [Facts₀]

def dot_S16x16384x128_S16x128x16_S16x16384x16_2_1_1_2_0_0 : DotDims S16x16384x128 S16x128x16 S16x16384x16 where
  lhsContracting := [2]
  rhsContracting := [1]
  lhsNonContracting := [1]
  rhsNonContracting := [2]
  lhsBatch := [0]
  rhsBatch := [0]
  wf := dot_S16x16384x128_S16x128x16_S16x16384x16_2_1_1_2_0_0_wf

class Facts : Prop extends Facts₀ where

variable [Facts]
-- ==== Proof.Words.Slabs.lean ====
/-
  One grid point of the embedding kernel, as a function of the blocks it is handed.

  At grid point g the body holds eight row-slabs of tensor[g] (2048 rows of 128 features each, slab k the rows
  2048·k … 2048·k + 2047), the 128 × 16 weight W[g], and the 16384 × 16 block out[g]. It multiplies each slab by
  the weight, starting every product from zero, and stores product k over rows 2048·k … 2048·k + 2047 of the
  output block. The eight row ranges tile the block, so what the block holds afterwards is the eight products
  stacked, whatever it held before: the body also reads each row range before overwriting it and uses nothing of
  what it read. This module says that once, for any interpretation of the floats: the contents of the arrays when
  the region is entered, each window's block at a grid point, the stacked products, and the body's run from its
  ten buffers to the stacked products.
-/
import proofs.«110623_g1614907703996_cont_week2b_559_4_alg».proof.Proof.Gen.Kernel.Launch
import proofs.«110623_g1614907703996_cont_week2b_559_4_alg».proof.Proof.Gen.Kernel.Skeleton
import proofs.«110623_g1614907703996_cont_week2b_559_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The entry function is the kernel region and nothing else, so the region finds every buffer as launched. -/
abbrev V (c : Dev nD) (b : Ref sig .tc) : Buf (Elt F) ((c : Thread nD τ).loc b) := m ((c : Thread nD τ).loc b)

/-- The entry function up to its region: the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array as the region finds it: for the eight tensor windows
    slab `w` of tensor[t], for window 8 the weight W[t]. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- A whole slab, -/
abbrev rSlab : Rect S1x2048x128 := Rect.unit (s := S1x2048x128) ![0, 0, 0] S1x2048x128.size inb_S1x2048x128_S1x2048x128_0_0_0
/-- the whole weight, -/
abbrev rWeight : Rect S1x128x16 := Rect.unit (s := S1x128x16) ![0, 0, 0] S1x128x16.size inb_S1x128x16_S1x128x16_0_0_0
/-- and rows 2048·k … 2048·k + 2047 of the output block, for k = 0 … 7. -/
abbrev rRows0 : Rect S1x16384x16 := Rect.unit (s := S1x16384x16) ![0, 0, 0] S1x2048x16.size inb_S1x16384x16_S1x2048x16_0_0_0
abbrev rRows1 : Rect S1x16384x16 := Rect.unit (s := S1x16384x16) ![0, 2048, 0] S1x2048x16.size inb_S1x16384x16_S1x2048x16_0_2048_0
abbrev rRows2 : Rect S1x16384x16 := Rect.unit (s := S1x16384x16) ![0, 4096, 0] S1x2048x16.size inb_S1x16384x16_S1x2048x16_0_4096_0
abbrev rRows3 : Rect S1x16384x16 := Rect.unit (s := S1x16384x16) ![0, 6144, 0] S1x2048x16.size inb_S1x16384x16_S1x2048x16_0_6144_0
abbrev rRows4 : Rect S1x16384x16 := Rect.unit (s := S1x16384x16) ![0, 8192, 0] S1x2048x16.size inb_S1x16384x16_S1x2048x16_0_8192_0
abbrev rRows5 : Rect S1x16384x16 := Rect.unit (s := S1x16384x16) ![0, 10240, 0] S1x2048x16.size inb_S1x16384x16_S1x2048x16_0_10240_0
abbrev rRows6 : Rect S1x16384x16 := Rect.unit (s := S1x16384x16) ![0, 12288, 0] S1x2048x16.size inb_S1x16384x16_S1x2048x16_0_12288_0
abbrev rRows7 : Rect S1x16384x16 := Rect.unit (s := S1x16384x16) ![0, 14336, 0] S1x2048x16.size inb_S1x16384x16_S1x2048x16_0_14336_0

/-! ## What the body leaves in the output block -/

/-- The output block after the body, from the weight block `xw` and the eight slabs `x1 … x8`: product k over rows
    2048·k … 2048·k + 2047. Written as the body's eight stores laid over one another, the last store first; each
    product is the value its store writes, as a function of the blocks the body loaded. -/
def stacked (xw : Vec F S1x128x16 .f32) (x1 x2 x3 x4 x5 x6 x7 x8 : Vec F S1x2048x128 .f32) : Vec F S1x16384x16 .f32 :=
  View.canon
    [⟨rRows7, k0_pay5 (k0_pay6 (View.ld xw rWeight)) (View.ld x8 rSlab)⟩,
     ⟨rRows6, k0_pay4 (k0_pay6 (View.ld xw rWeight)) (View.ld x7 rSlab)⟩,
     ⟨rRows5, k0_pay3 (k0_pay6 (View.ld xw rWeight)) (View.ld x6 rSlab)⟩,
     ⟨rRows4, k0_pay2 (k0_pay6 (View.ld xw rWeight)) (View.ld x5 rSlab)⟩,
     ⟨rRows3, k0_pay1 (k0_pay10 (View.ld xw rWeight) (View.ld x4 rSlab))⟩,
     ⟨rRows2, k0_pay9 (View.ld xw rWeight) (View.ld x3 rSlab)⟩,
     ⟨rRows1, k0_pay8 (View.ld xw rWeight) (View.ld x2 rSlab)⟩,
     ⟨rRows0, k0_pay7 (View.ld xw rWeight) (View.ld x1 rSlab)⟩]

/-- The eight row ranges tile the output block: every index of the block lies in one of them. -/
theorem rows_cover (p0 p1 p2 p3 p4 p5 p6 p7 : Vec F S1x2048x16 .f32) (y : S1x16384x16.Idx) :
    ∃ pc ∈ ([⟨rRows7, p7⟩, ⟨rRows6, p6⟩, ⟨rRows5, p5⟩, ⟨rRows4, p4⟩, ⟨rRows3, p3⟩, ⟨rRows2, p2⟩, ⟨rRows1, p1⟩, ⟨rRows0, p0⟩] :
        List (View.Piece (Elt F) S1x16384x16 .f32)), y ∈ pc.1.set :=
  View.cover_of_tiled [⟨rRows7, p7⟩, ⟨rRows6, p6⟩, ⟨rRows5, p5⟩, ⟨rRows4, p4⟩, ⟨rRows3, p3⟩, ⟨rRows2, p2⟩, ⟨rRows1, p1⟩, ⟨rRows0, p0⟩]
    S1x2048x16.size (by rfl) y

/-! ## The body's run -/

set_option maxHeartbeats 4000000 in
/-- The body on whole buffers — the eight slabs' and the weight's at contents it only reads, the output block's at
    anything — runs to its continuation with the inputs' buffers as they were and the output block at the stacked
    products. Every load and store is through a literal rectangle; the reads of the output block before each store
    land on whatever is there and are not used. -/
theorem body_run (c : Dev nD) (E : Set ℕ) (i : grid0.Coords) (a1 : Memref sig .tc .vmem S1x2048x128 .f32) (h1 : a1.IsWhole) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x2048x128 .f32) (h5 : a5.IsWhole) (a6 : Memref sig .tc .vmem S1x2048x128 .f32) (h6 : a6.IsWhole) (a7 : Memref sig .tc .vmem S1x2048x128 .f32) (h7 : a7.IsWhole) (a8 : Memref sig .tc .vmem S1x2048x128 .f32) (h8 : a8.IsWhole) (a9 : Memref sig .tc .vmem S1x128x16 .f32) (h9 : a9.IsWhole) (a10 : Memref sig .tc .vmem S1x16384x16 .f32) (h10 : a10.IsWhole)
    (xw : Vec F S1x128x16 .f32) (x1 x2 x3 x4 x5 x6 x7 x8 : Vec F S1x2048x128 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare xw ∗ (∃ d, owns (c : Thread nD τ) a10 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare xw ∗ owns (c : Thread nD τ) a10 fullShare (stacked xw x1 x2 x3 x4 x5 x6 x7 x8)) -∗ K ⟨⟩))
      ⊢ wp frame (wpE (defs₀ (F := F)) Variants.none c none) E (cc0__embed_block i a1 h1 a2 h2 a3 h3 a4 h4 a5 h5 a6 h6 a7 h7 a8 h8 a9 h9 a10 h10) K := by
  simp only [cc0__embed_block_eq_skeleton]; unfold cc0__embed_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (rows_cover _ _ _ _ _ _ _ _)

end Cert.Kernel.Embed

end
-- ==== Proof.Words.Data.lean ====
/-
  The proof data of the embedding kernel's one pipeline, and its body's obligation at every grid point.

  The pipeline has ten windows: eight on the tensor (window k stages slab k of tensor[g] at grid point g), one on
  the weights (W[g]) and one on the result (the block out[g], written back after every point). The tensor is ONE
  array behind EIGHT windows, and each window's fetches read it, so the array's full share is divided among them:
  halve the share seven times, give windows 0 … 6 the right halves and window 7 what remains. The weights and the
  result have one window each and are held whole. After the body each input window's buffer still holds its block,
  and the result's holds the eight stacked products; nothing is carried from point to point and no one is owed
  anything.
-/
import proofs.«110623_g1614907703996_cont_week2b_559_4_alg».proof.Proof.Words.Slabs

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block
    and the result's at the stacked products of the point's blocks; the invariant is the core's scoped buffers
    that are no staging buffer (there are none); the tensor's share dealt to its eight windows, token k to window
    k < 7 and the remainder to window 7; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stacked (blockAt m c 8 t) (blockAt m c 0 t) (blockAt m c 1 t) (blockAt m c 2 t) (blockAt m c 3 t) (blockAt m c 4 t) (blockAt m c 5 t) (blockAt m c 6 t) (blockAt m c 7 t)
  Φ _ := Pipeline.scopedRest (Ix := Unit) (Name := ℕ) (U := UR sig nD τ) (Lvl := ℕ) (Val := Elt F) spec0 c
  q w := match w with
    | ⟨0, _⟩ => Transfers.shareTokN fullShare 0
    | ⟨1, _⟩ => Transfers.shareTokN fullShare 1
    | ⟨2, _⟩ => Transfers.shareTokN fullShare 2
    | ⟨3, _⟩ => Transfers.shareTokN fullShare 3
    | ⟨4, _⟩ => Transfers.shareTokN fullShare 4
    | ⟨5, _⟩ => Transfers.shareTokN fullShare 5
    | ⟨6, _⟩ => Transfers.shareTokN fullShare 6
    | ⟨7, _⟩ => Transfers.shareDrop fullShare 7
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) :
    (dats m 0 c).after 9 t = stacked (blockAt m c 8 t) (blockAt m c 0 t) (blockAt m c 1 t) (blockAt m c 2 t) (blockAt m c 3 t) (blockAt m c 4 t) (blockAt m c 5 t) (blockAt m c 6 t) (blockAt m c 7 t) := by dsimp only [dats]

/-- Each input window's current buffer holds its block when the body runs, fetched at that point or not: an input
    the body leaves in place holds what a fetch there would put in it, and these windows are uncut, so that is the
    block. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
      (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
      (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
      (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
      (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl)
      (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl)
      (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl)
      (fun t => by rw [after_8]; unfold Dat.blockOf blockAt; rw [A_eq]; try rfl) t d).trans
    (by unfold Dat.fetched Dat.blockOf blockAt; rw [A_eq]; try rfl)

/-! ## The body's obligation at a grid point -/

/-- What the body is called with at point `t`: the invariant, what the core owes, and each window's current
    buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ _ _ _ _ _ _ _ _ _ _ _ _ _ _ _ _ _ _ _ _ _ (blockAt m c 8 t) (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Embed

end
-- ==== Proof.LibShareDeal.lean ====
/-
  Dealing one held array to eight readers.

  A points-to at a share `q` can be cut along the share: halve `q`, keep the left half and hand out the right one;
  halve what was kept, and so on. After seven cuts there are seven handed-out halves — the successive right halves of
  `q` — and the left remainder, eight positive shares that compose back to `q`. Each holder may read the elements
  and none may write them. This module states the cut for any location, element set, contents and share: one step,
  and the eight-way chain both ways.
-/
import Idealize.ShloMosaic.Lib.Transfers

noncomputable section

namespace Cert.Lib

open Idealize.SL
open Idealize.SL.BI (sProp)
open scoped Idealize.SL.BI
open Idealize.SL.BI.BIBase Idealize.SL.BI.Laws Idealize.SL.Sem Idealize.SL.ProofMode
open Idealize.SL.RA
open Idealize.ShloMosaic Idealize.ShloMosaic.Transfers

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {ℓ : Loc nD τ sig} {S : Finset (Idx ℓ)} {f : Buf Val ℓ}

/-- One cut: what remains after `k` halvings is the `k`-th handed-out half and what remains after `k + 1`. -/
theorem pointsTo_cut (q : PosShare TreeShare) (k : ℕ) :
    (ℓ ↦[S]{shareDrop q k} f : sProp 𝕄) ⊣⊢ iprop((ℓ ↦[S]{shareTokN q k} f) ∗ ℓ ↦[S]{shareDrop q (k + 1)} f) :=
  ⟨(pointsTo_share (PosShare.mem_left_op_right (shareDrop q k))).1.trans sep_comm.1,
   sep_comm.1.trans (pointsTo_share (PosShare.mem_left_op_right (shareDrop q k))).2⟩

/-- Seven cuts: a points-to at `q` is the seven handed-out halves and the remainder, in the order handed out. -/
theorem pointsTo_deal_eight (q : PosShare TreeShare) :
    (ℓ ↦[S]{q} f : sProp 𝕄) ⊢
      iprop((ℓ ↦[S]{shareTokN q 0} f) ∗ (ℓ ↦[S]{shareTokN q 1} f) ∗ (ℓ ↦[S]{shareTokN q 2} f) ∗ (ℓ ↦[S]{shareTokN q 3} f)
        ∗ (ℓ ↦[S]{shareTokN q 4} f) ∗ (ℓ ↦[S]{shareTokN q 5} f) ∗ (ℓ ↦[S]{shareTokN q 6} f) ∗ ℓ ↦[S]{shareDrop q 7} f) :=
  (pointsTo_cut q 0).1.trans <| sep_mono .rfl <|
  (pointsTo_cut q 1).1.trans <| sep_mono .rfl <|
  (pointsTo_cut q 2).1.trans <| sep_mono .rfl <|
  (pointsTo_cut q 3).1.trans <| sep_mono .rfl <|
  (pointsTo_cut q 4).1.trans <| sep_mono .rfl <|
  (pointsTo_cut q 5).1.trans <| sep_mono .rfl <|
  (pointsTo_cut q 6).1

/-- And back: the eight pieces compose to the points-to at `q`. -/
theorem pointsTo_join_eight (q : PosShare TreeShare) :
    iprop((ℓ ↦[S]{shareTokN q 0} f) ∗ (ℓ ↦[S]{shareTokN q 1} f) ∗ (ℓ ↦[S]{shareTokN q 2} f) ∗ (ℓ ↦[S]{shareTokN q 3} f)
        ∗ (ℓ ↦[S]{shareTokN q 4} f) ∗ (ℓ ↦[S]{shareTokN q 5} f) ∗ (ℓ ↦[S]{shareTokN q 6} f) ∗ ℓ ↦[S]{shareDrop q 7} f)
      ⊢ (ℓ ↦[S]{q} f : sProp 𝕄) :=
  (sep_mono .rfl <| (sep_mono .rfl <| (sep_mono .rfl <| (sep_mono .rfl <| (sep_mono .rfl <| (sep_mono .rfl <|
    (pointsTo_cut q 6).2).trans (pointsTo_cut q 5).2).trans (pointsTo_cut q 4).2).trans (pointsTo_cut q 3).2).trans
    (pointsTo_cut q 2).2).trans (pointsTo_cut q 1).2).trans (pointsTo_cut q 0).2

end Cert.Lib

end
-- ==== Proof.Words.Run.lean ====
/-
  The embedding kernel's run.

  The entry function is one kernel region over sixteen grid points. The region is handed three arrays — the
  tensor, the weights, the result — through ten windows, eight of them on the tensor; so at the region's entry the
  tensor's full share is dealt to its eight windows (seven successive halves and the remainder), and the weights and
  the result go whole to their one window each. With the body's obligation at every point this gives the run: every
  weakly fair execution ends, nothing faults, and each window's array ends at what the write-backs computed from the
  proof data leave in it — for the tensor and the weights, which no point writes back, what they held at launch.
-/
import proofs.«110623_g1614907703996_cont_week2b_559_4_alg».proof.Proof.Words.Data
import proofs.«110623_g1614907703996_cont_week2b_559_4_alg».proof.Proof.LibShareDeal
import Idealize.ShloMosaic.Lib.Pipeline.Launch

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The buffers behind the ten windows' arrays are three: the tensor, the weights and the result. -/
theorem arrBufs_three (c : Dev nD) (W : (b : Ref sig .tc) → Buf (Elt F) ((c.tc : Thread nD τ).loc b)) :
    (Pipeline.arrBufs spec0 c W : sProp 𝕄)
      = iprop(((c.tc : Thread nD τ).loc main_arg0 ↦{fullShare} W main_arg0) ∗ ((c.tc : Thread nD τ).loc main_arg1 ↦{fullShare} W main_arg1)
          ∗ ((c.tc : Thread nD τ).loc main_v0 ↦{fullShare} W main_v0)) :=
  bigSep_eq_bigSepL_of_eq [main_arg0, main_arg1, main_v0] (by decide) (by decide) _

/-- Every window's array is a whole buffer, so the proof data's arrays are each buffer on all its elements, at the
    window's share. -/
theorem arrays_whole (c : Dev nD) (G : (w : Fin cfg0.W) → Buf (Elt F) ((cfg0.win w).arr.view.loc (c.tc : Thread nD τ))) :
    (dats m 0 c).arrays G
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- At the region's entry the three buffers, each held whole, make the ten windows' arrays at the proof data's shares:
    the tensor cut into the seven halves and the remainder its eight windows hold, the weights and the result as they
    are. -/
theorem deal (c : Dev nD) :
    (Pipeline.arrBufs spec0 c (V m c) : sProp 𝕄) ⊢ (dats m 0 c).arrays ((dats m 0 c).arrAt · 0) := by
  rw [arrBufs_three, arrays_whole, bigSep_W0]
  iintro ⟨Ht, Hw, Ho⟩
  ihave Ht := (Cert.Lib.pointsTo_deal_eight fullShare) $$ Ht
  icases Ht with ⟨T0, T1, T2, T3, T4, T5, T6, T7⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [Hw]; · iexact Hw
  iexact Ho

/-! ## The region's invariant at its two ends -/

/-- Before the first point the invariant is what the launch hands the kernel of the core's scoped buffers, -/
theorem inv_entry (c : Dev nD) :
    (iprop(emp ∗ Pipeline.scopedRest (cfgs 0).spec c) : sProp 𝕄) ⊢ (dats m 0 c).Φ 0 := by
  rw [show (dats m 0 c).Φ 0 = (Pipeline.scopedRest (cfgs 0).spec c : sProp 𝕄) from rfl]
  iintro ⟨-, H⟩; iexact H

/-- and after the last point it gives the same back. -/
theorem inv_exit (c : Dev nD) :
    (dats m 0 c).Φ (Fin.last (cfgs 0).N) ⊢ (iprop(emp ∗ Pipeline.scopedRest (cfgs 0).spec c) : sProp 𝕄) := by
  rw [show (dats m 0 c).Φ (Fin.last (cfgs 0).N) = (Pipeline.scopedRest (cfgs 0).spec c : sProp 𝕄) from rfl]
  iintro H; isplitr; · iempintro
  iexact H

/-! ## The run -/

/-- After the run every window's array holds what the write-backs computed from the proof data leave in it. -/
def Final (r : PUnit × MemSt nD τ sig (Elt F)) : Prop :=
  ∀ (c : Dev nD) (w : Fin cfg0.W),
    r.2.mem ((cfg0.win w).arr.view.loc (c.tc : Thread nD τ)) = (dats m 0 c).arrAt w cfg0.N

set_option backward.isDefEq.respectTransparency.types false in
/-- At the compiled mesh, for any float values, from any memory with zero counters: every weakly fair execution of
    the entry function on the TensorCores terminates, nothing faulting, in a state satisfying `Final`. The kernel
    has no scoped buffer beside its staging buffers and the program no unscoped buffer beside the three arrays, so
    the region's invariant is empty at entry and at exit. -/
theorem run_main : θ_run defs (onTc (τ := τ) (main (F := F))) (s₀ m ρ) (Final m) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := deal m)
    (X := fun _ => iprop(emp)) (Y := fun _ => iprop(emp)) (Z := fun _ => iprop(emp))
    (hX := fun c => by rw [unscopedRest0_eq]; iintro -; isplitr <;> iempintro)
    (hin := inv_entry m) (hout := inv_exit m)
    (QY := fun _ _ => True)
    (hY := fun c s' => by
      iintro ⟨-, -, HSI⟩; imodintro
      isplitr; · ipureintro; trivial
      iexact HSI)
    (hQ := fun _ h c w => (h c).1 w)

/-- info: 'Cert.Kernel.Embed.run_main' depends on axioms: [propext, Classical.choice, Quot.sound] -/
#guard_msgs in #print axioms run_main

/-! ## What the run leaves in the three arrays -/

/-- The tensor and the weights are inputs of the region: no point writes them back, and they end as launched. -/
theorem final_tensor (c : Dev nD) : (dats m 0 c).arrAt 0 cfg0.N = m ((c.tc : Thread nD τ).loc main_arg0) :=
  ((dats m 0 c).arrAt_in 0 rfl _).trans (A_eq m c 0)
theorem final_weights (c : Dev nD) : (dats m 0 c).arrAt 8 cfg0.N = m ((c.tc : Thread nD τ).loc main_arg1) :=
  ((dats m 0 c).arrAt_in 8 rfl _).trans (A_eq m c 8)

/-- THE FRAME: the program runs to the end, faults nowhere, and leaves the tensor and the weights as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (final_tensor m c), (h c 8).trans (final_weights m c)⟩) (run_main m ρ)

/-- The same run with the result array named: it ends at what the sixteen write-backs of the result window leave. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 9, (h c 0).trans (final_tensor m c), (h c 8).trans (final_weights m c)⟩) (run_main m ρ)

end Cert.Kernel.Embed

end
-- ==== Proof.Exact.Slabs.lean ====
/-
  One grid point of the embedding kernel, as a function of the blocks it is handed.

  At grid point g the body holds eight row-slabs of tensor[g] (2048 rows of 128 features each, slab k the rows
  2048·k … 2048·k + 2047), the 128 × 16 weight W[g], and the 16384 × 16 block out[g]. It multiplies each slab by
  the weight, starting every product from zero, and stores product k over rows 2048·k … 2048·k + 2047 of the
  output block. The eight row ranges tile the block, so what the block holds afterwards is the eight products
  stacked, whatever it held before: the body also reads each row range before overwriting it and uses nothing of
  what it read. This module says that once, for any interpretation of the floats: the contents of the arrays when
  the region is entered, each window's block at a grid point, the stacked products, and the body's run from its
  ten buffers to the stacked products.
-/
import proofs.«110623_g1614907703996_cont_week2b_559_4_alg».proof.Proof.Gen.KernelIdeal.Launch
import proofs.«110623_g1614907703996_cont_week2b_559_4_alg».proof.Proof.Gen.KernelIdeal.Skeleton
import proofs.«110623_g1614907703996_cont_week2b_559_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The entry function is the kernel region and nothing else, so the region finds every buffer as launched. -/
abbrev V (c : Dev nD) (b : Ref sig .tc) : Buf (Elt F) ((c : Thread nD τ).loc b) := m ((c : Thread nD τ).loc b)

/-- The entry function up to its region: the region alone. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array as the region finds it: for the eight tensor windows
    slab `w` of tensor[t], for window 8 the weight W[t]. -/
def blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- A whole slab, -/
abbrev rSlab : Rect S1x2048x128 := Rect.unit (s := S1x2048x128) ![0, 0, 0] S1x2048x128.size inb_S1x2048x128_S1x2048x128_0_0_0
/-- the whole weight, -/
abbrev rWeight : Rect S1x128x16 := Rect.unit (s := S1x128x16) ![0, 0, 0] S1x128x16.size inb_S1x128x16_S1x128x16_0_0_0
/-- and rows 2048·k … 2048·k + 2047 of the output block, for k = 0 … 7. -/
abbrev rRows0 : Rect S1x16384x16 := Rect.unit (s := S1x16384x16) ![0, 0, 0] S1x2048x16.size inb_S1x16384x16_S1x2048x16_0_0_0
abbrev rRows1 : Rect S1x16384x16 := Rect.unit (s := S1x16384x16) ![0, 2048, 0] S1x2048x16.size inb_S1x16384x16_S1x2048x16_0_2048_0
abbrev rRows2 : Rect S1x16384x16 := Rect.unit (s := S1x16384x16) ![0, 4096, 0] S1x2048x16.size inb_S1x16384x16_S1x2048x16_0_4096_0
abbrev rRows3 : Rect S1x16384x16 := Rect.unit (s := S1x16384x16) ![0, 6144, 0] S1x2048x16.size inb_S1x16384x16_S1x2048x16_0_6144_0
abbrev rRows4 : Rect S1x16384x16 := Rect.unit (s := S1x16384x16) ![0, 8192, 0] S1x2048x16.size inb_S1x16384x16_S1x2048x16_0_8192_0
abbrev rRows5 : Rect S1x16384x16 := Rect.unit (s := S1x16384x16) ![0, 10240, 0] S1x2048x16.size inb_S1x16384x16_S1x2048x16_0_10240_0
abbrev rRows6 : Rect S1x16384x16 := Rect.unit (s := S1x16384x16) ![0, 12288, 0] S1x2048x16.size inb_S1x16384x16_S1x2048x16_0_12288_0
abbrev rRows7 : Rect S1x16384x16 := Rect.unit (s := S1x16384x16) ![0, 14336, 0] S1x2048x16.size inb_S1x16384x16_S1x2048x16_0_14336_0

/-! ## What the body leaves in the output block -/

/-- The output block after the body, from the weight block `xw` and the eight slabs `x1 … x8`: product k over rows
    2048·k … 2048·k + 2047. Written as the body's eight stores laid over one another, the last store first; each
    product is the value its store writes, as a function of the blocks the body loaded. -/
def stacked (xw : Vec F S1x128x16 .f32) (x1 x2 x3 x4 x5 x6 x7 x8 : Vec F S1x2048x128 .f32) : Vec F S1x16384x16 .f32 :=
  View.canon
    [⟨rRows7, k0_pay5 (k0_pay6 (View.ld xw rWeight)) (View.ld x8 rSlab)⟩,
     ⟨rRows6, k0_pay4 (k0_pay6 (View.ld xw rWeight)) (View.ld x7 rSlab)⟩,
     ⟨rRows5, k0_pay3 (k0_pay6 (View.ld xw rWeight)) (View.ld x6 rSlab)⟩,
     ⟨rRows4, k0_pay2 (k0_pay6 (View.ld xw rWeight)) (View.ld x5 rSlab)⟩,
     ⟨rRows3, k0_pay1 (k0_pay10 (View.ld xw rWeight) (View.ld x4 rSlab))⟩,
     ⟨rRows2, k0_pay9 (View.ld xw rWeight) (View.ld x3 rSlab)⟩,
     ⟨rRows1, k0_pay8 (View.ld xw rWeight) (View.ld x2 rSlab)⟩,
     ⟨rRows0, k0_pay7 (View.ld xw rWeight) (View.ld x1 rSlab)⟩]

/-- The eight row ranges tile the output block: every index of the block lies in one of them. -/
theorem rows_cover (p0 p1 p2 p3 p4 p5 p6 p7 : Vec F S1x2048x16 .f32) (y : S1x16384x16.Idx) :
    ∃ pc ∈ ([⟨rRows7, p7⟩, ⟨rRows6, p6⟩, ⟨rRows5, p5⟩, ⟨rRows4, p4⟩, ⟨rRows3, p3⟩, ⟨rRows2, p2⟩, ⟨rRows1, p1⟩, ⟨rRows0, p0⟩] :
        List (View.Piece (Elt F) S1x16384x16 .f32)), y ∈ pc.1.set :=
  View.cover_of_tiled [⟨rRows7, p7⟩, ⟨rRows6, p6⟩, ⟨rRows5, p5⟩, ⟨rRows4, p4⟩, ⟨rRows3, p3⟩, ⟨rRows2, p2⟩, ⟨rRows1, p1⟩, ⟨rRows0, p0⟩]
    S1x2048x16.size (by rfl) y

/-! ## The body's run -/

set_option maxHeartbeats 4000000 in
/-- The body on whole buffers — the eight slabs' and the weight's at contents it only reads, the output block's at
    anything — runs to its continuation with the inputs' buffers as they were and the output block at the stacked
    products. Every load and store is through a literal rectangle; the reads of the output block before each store
    land on whatever is there and are not used. -/
theorem body_run (c : Dev nD) (E : Set ℕ) (i : grid0.Coords) (a1 : Memref sig .tc .vmem S1x2048x128 .f32) (h1 : a1.IsWhole) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x2048x128 .f32) (h5 : a5.IsWhole) (a6 : Memref sig .tc .vmem S1x2048x128 .f32) (h6 : a6.IsWhole) (a7 : Memref sig .tc .vmem S1x2048x128 .f32) (h7 : a7.IsWhole) (a8 : Memref sig .tc .vmem S1x2048x128 .f32) (h8 : a8.IsWhole) (a9 : Memref sig .tc .vmem S1x128x16 .f32) (h9 : a9.IsWhole) (a10 : Memref sig .tc .vmem S1x16384x16 .f32) (h10 : a10.IsWhole)
    (xw : Vec F S1x128x16 .f32) (x1 x2 x3 x4 x5 x6 x7 x8 : Vec F S1x2048x128 .f32) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare xw ∗ (∃ d, owns (c : Thread nD τ) a10 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare xw ∗ owns (c : Thread nD τ) a10 fullShare (stacked xw x1 x2 x3 x4 x5 x6 x7 x8)) -∗ K ⟨⟩))
      ⊢ wp frame (wpE (defs₀ (F := F)) Variants.none c none) E (cc0__embed_block i a1 h1 a2 h2 a3 h3 a4 h4 a5 h5 a6 h6 a7 h7 a8 h8 a9 h9 a10 h10) K := by
  simp only [cc0__embed_block_eq_skeleton]; unfold cc0__embed_block_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (rows_cover _ _ _ _ _ _ _ _)

end Cert.KernelIdeal.Embed

end
-- ==== Proof.Exact.Data.lean ====
/-
  The proof data of the embedding kernel's one pipeline, and its body's obligation at every grid point.

  The pipeline has ten windows: eight on the tensor (window k stages slab k of tensor[g] at grid point g), one on
  the weights (W[g]) and one on the result (the block out[g], written back after every point). The tensor is ONE
  array behind EIGHT windows, and each window's fetches read it, so the array's full share is divided among them:
  halve the share seven times, give windows 0 … 6 the right halves and window 7 what remains. The weights and the
  result have one window each and are held whole. After the body each input window's buffer still holds its block,
  and the result's holds the eight stacked products; nothing is carried from point to point and no one is owed
  anything.
-/
import proofs.«110623_g1614907703996_cont_week2b_559_4_alg».proof.Proof.Exact.Slabs

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block
    and the result's at the stacked products of the point's blocks; the invariant is the core's scoped buffers
    that are no staging buffer (there are none); the tensor's share dealt to its eight windows, token k to window
    k < 7 and the remainder to window 7; nothing owed. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => stacked (blockAt m c 8 t) (blockAt m c 0 t) (blockAt m c 1 t) (blockAt m c 2 t) (blockAt m c 3 t) (blockAt m c 4 t) (blockAt m c 5 t) (blockAt m c 6 t) (blockAt m c 7 t)
  Φ _ := Pipeline.scopedRest (Ix := Unit) (Name := ℕ) (U := UR sig nD τ) (Lvl := ℕ) (Val := Elt F) spec0 c
  q w := match w with
    | ⟨0, _⟩ => Transfers.shareTokN fullShare 0
    | ⟨1, _⟩ => Transfers.shareTokN fullShare 1
    | ⟨2, _⟩ => Transfers.shareTokN fullShare 2
    | ⟨3, _⟩ => Transfers.shareTokN fullShare 3
    | ⟨4, _⟩ => Transfers.shareTokN fullShare 4
    | ⟨5, _⟩ => Transfers.shareTokN fullShare 5
    | ⟨6, _⟩ => Transfers.shareTokN fullShare 6
    | ⟨7, _⟩ => Transfers.shareDrop fullShare 7
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) :
    (dats m 0 c).after 9 t = stacked (blockAt m c 8 t) (blockAt m c 0 t) (blockAt m c 1 t) (blockAt m c 2 t) (blockAt m c 3 t) (blockAt m c 4 t) (blockAt m c 5 t) (blockAt m c 6 t) (blockAt m c 7 t) := by dsimp only [dats]

/-- Each input window's current buffer holds its block when the body runs, fetched at that point or not: an input
    the body leaves in place holds what a fetch there would put in it, and these windows are uncut, so that is the
    block. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
      (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
      (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
      (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
      (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl)
      (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl)
      (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl)
      (fun t => by rw [after_8]; unfold Dat.blockOf blockAt; rw [A_eq]; try rfl) t d).trans
    (by unfold Dat.fetched Dat.blockOf blockAt; rw [A_eq]; try rfl)

/-! ## The body's obligation at a grid point -/

/-- What the body is called with at point `t`: the invariant, what the core owes, and each window's current
    buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so the body's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ _ _ _ _ _ _ _ _ _ _ _ _ _ _ _ _ _ _ _ _ _ (blockAt m c 8 t) (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Embed

end
-- ==== Proof.Exact.Run.lean ====
/-
  The embedding kernel's run.

  The entry function is one kernel region over sixteen grid points. The region is handed three arrays — the
  tensor, the weights, the result — through ten windows, eight of them on the tensor; so at the region's entry the
  tensor's full share is dealt to its eight windows (seven successive halves and the remainder), and the weights and
  the result go whole to their one window each. With the body's obligation at every point this gives the run: every
  weakly fair execution ends, nothing faults, and each window's array ends at what the write-backs computed from the
  proof data leave in it — for the tensor and the weights, which no point writes back, what they held at launch.
-/
import proofs.«110623_g1614907703996_cont_week2b_559_4_alg».proof.Proof.Exact.Data
import proofs.«110623_g1614907703996_cont_week2b_559_4_alg».proof.Proof.LibShareDeal
import Idealize.ShloMosaic.Lib.Pipeline.Launch

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The buffers behind the ten windows' arrays are three: the tensor, the weights and the result. -/
theorem arrBufs_three (c : Dev nD) (W : (b : Ref sig .tc) → Buf (Elt F) ((c.tc : Thread nD τ).loc b)) :
    (Pipeline.arrBufs spec0 c W : sProp 𝕄)
      = iprop(((c.tc : Thread nD τ).loc main_arg0 ↦{fullShare} W main_arg0) ∗ ((c.tc : Thread nD τ).loc main_arg1 ↦{fullShare} W main_arg1)
          ∗ ((c.tc : Thread nD τ).loc main_v0 ↦{fullShare} W main_v0)) :=
  bigSep_eq_bigSepL_of_eq [main_arg0, main_arg1, main_v0] (by decide) (by decide) _

/-- Every window's array is a whole buffer, so the proof data's arrays are each buffer on all its elements, at the
    window's share. -/
theorem arrays_whole (c : Dev nD) (G : (w : Fin cfg0.W) → Buf (Elt F) ((cfg0.win w).arr.view.loc (c.tc : Thread nD τ))) :
    (dats m 0 c).arrays G
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- At the region's entry the three buffers, each held whole, make the ten windows' arrays at the proof data's shares:
    the tensor cut into the seven halves and the remainder its eight windows hold, the weights and the result as they
    are. -/
theorem deal (c : Dev nD) :
    (Pipeline.arrBufs spec0 c (V m c) : sProp 𝕄) ⊢ (dats m 0 c).arrays ((dats m 0 c).arrAt · 0) := by
  rw [arrBufs_three, arrays_whole, bigSep_W0]
  iintro ⟨Ht, Hw, Ho⟩
  ihave Ht := (Cert.Lib.pointsTo_deal_eight fullShare) $$ Ht
  icases Ht with ⟨T0, T1, T2, T3, T4, T5, T6, T7⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [Hw]; · iexact Hw
  iexact Ho

/-! ## The region's invariant at its two ends -/

/-- Before the first point the invariant is what the launch hands the kernel of the core's scoped buffers, -/
theorem inv_entry (c : Dev nD) :
    (iprop(emp ∗ Pipeline.scopedRest (cfgs 0).spec c) : sProp 𝕄) ⊢ (dats m 0 c).Φ 0 := by
  rw [show (dats m 0 c).Φ 0 = (Pipeline.scopedRest (cfgs 0).spec c : sProp 𝕄) from rfl]
  iintro ⟨-, H⟩; iexact H

/-- and after the last point it gives the same back. -/
theorem inv_exit (c : Dev nD) :
    (dats m 0 c).Φ (Fin.last (cfgs 0).N) ⊢ (iprop(emp ∗ Pipeline.scopedRest (cfgs 0).spec c) : sProp 𝕄) := by
  rw [show (dats m 0 c).Φ (Fin.last (cfgs 0).N) = (Pipeline.scopedRest (cfgs 0).spec c : sProp 𝕄) from rfl]
  iintro H; isplitr; · iempintro
  iexact H

/-! ## The run -/

/-- After the run every window's array holds what the write-backs computed from the proof data leave in it. -/
def Final (r : PUnit × MemSt nD τ sig (Elt F)) : Prop :=
  ∀ (c : Dev nD) (w : Fin cfg0.W),
    r.2.mem ((cfg0.win w).arr.view.loc (c.tc : Thread nD τ)) = (dats m 0 c).arrAt w cfg0.N

set_option backward.isDefEq.respectTransparency.types false in
/-- At the compiled mesh, for any float values, from any memory with zero counters: every weakly fair execution of
    the entry function on the TensorCores terminates, nothing faulting, in a state satisfying `Final`. The kernel
    has no scoped buffer beside its staging buffers and the program no unscoped buffer beside the three arrays, so
    the region's invariant is empty at entry and at exit. -/
theorem run_main : θ_run defs (onTc (τ := τ) (main (F := F))) (s₀ m ρ) (Final m) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := deal m)
    (X := fun _ => iprop(emp)) (Y := fun _ => iprop(emp)) (Z := fun _ => iprop(emp))
    (hX := fun c => by rw [unscopedRest0_eq]; iintro -; isplitr <;> iempintro)
    (hin := inv_entry m) (hout := inv_exit m)
    (QY := fun _ _ => True)
    (hY := fun c s' => by
      iintro ⟨-, -, HSI⟩; imodintro
      isplitr; · ipureintro; trivial
      iexact HSI)
    (hQ := fun _ h c w => (h c).1 w)

/-- info: 'Cert.KernelIdeal.Embed.run_main' depends on axioms: [propext, Classical.choice, Quot.sound] -/
#guard_msgs in #print axioms run_main

/-! ## What the run leaves in the three arrays -/

/-- The tensor and the weights are inputs of the region: no point writes them back, and they end as launched. -/
theorem final_tensor (c : Dev nD) : (dats m 0 c).arrAt 0 cfg0.N = m ((c.tc : Thread nD τ).loc main_arg0) :=
  ((dats m 0 c).arrAt_in 0 rfl _).trans (A_eq m c 0)
theorem final_weights (c : Dev nD) : (dats m 0 c).arrAt 8 cfg0.N = m ((c.tc : Thread nD τ).loc main_arg1) :=
  ((dats m 0 c).arrAt_in 8 rfl _).trans (A_eq m c 8)

/-- THE FRAME: the program runs to the end, faults nowhere, and leaves the tensor and the weights as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (final_tensor m c), (h c 8).trans (final_weights m c)⟩) (run_main m ρ)

/-- The same run with the result array named: it ends at what the sixteen write-backs of the result window leave. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 9, (h c 0).trans (final_tensor m c), (h c 8).trans (final_weights m c)⟩) (run_main m ρ)

end Cert.KernelIdeal.Embed

end
-- ==== Proof.EmbedSpec.lean ====
/-
  The batched linear embedding, as one function of its two argument arrays.

  For sixteen genomes g, 16384 batch rows b, 128 features f and 16 embedding coordinates e,

      out[g, b, e] = Σ_f tensor[g, b, f] · W[g, f, e]

  read on the extended reals, where a finite sum is what it is in any order and any grouping. Both programs of the
  certificate compute this: one as a single batched contraction, the other genome by genome and, within a genome,
  2048 rows at a time. Nothing here needs the inputs finite: no law moves a factor across the sum.
-/
import Idealize.ShloMosaic.Lib.ValueIdx
import Idealize.ShloMosaic.PureOps.Ideal

noncomputable section

open scoped BigOperators

namespace Cert.Embed

open Idealize.ShloMosaic Idealize.ShloMosaic.ValueIdx

/-- The embedding of `T : [16, 16384, 128]` by `W : [16, 128, 16]`, entry by entry. -/
def embed (T : (⟨3, ![16, 16384, 128]⟩ : Shape).Idx → EReal) (W : (⟨3, ![16, 128, 16]⟩ : Shape).Idx → EReal) :
    (⟨3, ![16, 16384, 16]⟩ : Shape).Idx → EReal :=
  fun i => ∑ k : Fin 128, T (ix3 (i 0) (i 1) k) * W (ix3 (i 0) k (i 2))

/-- At coordinates. -/
theorem embed_apply (T : (⟨3, ![16, 16384, 128]⟩ : Shape).Idx → EReal) (W : (⟨3, ![16, 128, 16]⟩ : Shape).Idx → EReal)
    (g : Fin 16) (b : Fin 16384) (e : Fin 16) :
    embed T W (ix3 g b e) = ∑ k : Fin 128, T (ix3 g b k) * W (ix3 g k e) := rfl

end Cert.Embed

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.Exact.Value.lean ====
import proofs.«110623_g1614907703996_cont_week2b_559_4_alg».proof.Proof.Exact.Run
import proofs.«110623_g1614907703996_cont_week2b_559_4_alg».proof.Proof.EmbedSpec
import proofs.«110623_g1614907703996_cont_week2b_559_4_alg».proof.Proof.LibPlainMatmul
import Idealize.ShloMosaic.Lib.Pipeline.Value
import Idealize.ShloMosaic.Lib.ValueIdx
import Idealize.ShloMosaic.PureOps.Ideal.Laws

set_option maxRecDepth 16384

noncomputable section
open scoped BigOperators

namespace Cert.KernelIdeal.Embed

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-!
  What the embedding kernel computes, at the exact reals.

  At grid point g the result window's block is out[g]; the body fills it with eight products, product k over rows
  2048·k … 2048·k + 2047, each the plain matrix product of slab k of tensor[g] with W[g] accumulated from zero. Read
  at row r of slab k and column e that product is Σ_f tensor[g, 2048·k + r, f] · W[g, f, e] — entry
  (g, 2048·k + r, e) of the embedding. So every piece of the block is the embedding restricted to its rows, the
  block written back at point g is the embedding restricted to genome g, and since the sixteen blocks tile the
  result array — block g is exactly the indices whose first coordinate is g — the array ends holding the embedding
  of the tensor and the weights as launched.
-/

variable {F : FTy → Type} [FloatOps F]

/-- The three zero offsets, as the constant function. -/
theorem zeros3 : (![0, 0, 0] : Fin 3 → Nat) = fun _ => 0 := funext fun a => by fin_cases a <;> rfl

/-! ## One slab's product -/

/-- One slab times the weight: both with their unit axis dropped, multiplied from the zero accumulator, the unit
    axis put back. -/
def slabProduct (w : Vec F S1x128x16 .f32) (x : Vec F S1x2048x128 .f32) : FVec F S1x2048x16 .f32 :=
  shapeCast S1x2048x16
    (matmul dot_S2048x128_S128x16_S2048x16_1_0_0_1_n_n none (shapeCast S2048x128 x shapeCasts_S1x2048x128_S2048x128)
      (shapeCast S128x16 w shapeCasts_S1x128x16_S128x16) (constant S2048x16 .f32 0x00000000#32))
    shapeCasts_S2048x16_S1x2048x16

/-- Each of the body's eight stores writes that product of the weight block and the store's slab. -/
theorem store0_eq (w : Vec F S1x128x16 .f32) (x : Vec F S1x2048x128 .f32) : k0_pay7 w x = slabProduct w x := rfl
theorem store1_eq (w : Vec F S1x128x16 .f32) (x : Vec F S1x2048x128 .f32) : k0_pay8 w x = slabProduct w x := rfl
theorem store2_eq (w : Vec F S1x128x16 .f32) (x : Vec F S1x2048x128 .f32) : k0_pay9 w x = slabProduct w x := rfl
theorem store3_eq (w : Vec F S1x128x16 .f32) (x : Vec F S1x2048x128 .f32) : k0_pay1 (k0_pay10 w x) = slabProduct w x := rfl
theorem store4_eq (w : Vec F S1x128x16 .f32) (x : Vec F S1x2048x128 .f32) : k0_pay2 (k0_pay6 w) x = slabProduct w x := rfl
theorem store5_eq (w : Vec F S1x128x16 .f32) (x : Vec F S1x2048x128 .f32) : k0_pay3 (k0_pay6 w) x = slabProduct w x := rfl
theorem store6_eq (w : Vec F S1x128x16 .f32) (x : Vec F S1x2048x128 .f32) : k0_pay4 (k0_pay6 w) x = slabProduct w x := rfl
theorem store7_eq (w : Vec F S1x128x16 .f32) (x : Vec F S1x2048x128 .f32) : k0_pay5 (k0_pay6 w) x = slabProduct w x := rfl

/-- Row `r`, column `e` of a slab's product at the exact reals: the sum over the 128 features of the slab's row entry
    times the weight's column entry. The two unit axes are read through, and the product into the zero accumulator
    is the plain sum. -/
theorem slabProduct_apply (w : Vec Ideal S1x128x16 .f32) (x : Vec Ideal S1x2048x128 .f32) (r : Fin 2048) (e : Fin 16) :
    slabProduct (F := Ideal) w x (ix3 (0 : Fin 1) r e) = ∑ k : Fin 128, x (ix3 (0 : Fin 1) r k) * w (ix3 (0 : Fin 1) k e) := by
  unfold slabProduct
  refine (shapeCast_addUnit_apply ![2048, 16] _ shapeCasts_S2048x16_S1x2048x16 (ix3 (0 : Fin 1) r e)).trans ?_
  have e1 : (fun a : Fin 2 => (ix3 (0 : Fin 1) r e) a.succ) = ix2 r e := funext fun a => by
    match a with
    | ⟨0, _⟩ => rfl
    | ⟨1, _⟩ => rfl
  rw [e1]
  refine (PlainMatmul.matmul_zero_apply dot_S2048x128_S128x16_S2048x16_1_0_0_1_n_n rfl rfl rfl rfl rfl rfl none _ _ r e).trans ?_
  refine Finset.sum_congr rfl fun k _ => ?_
  have hx : shapeCast S2048x128 x shapeCasts_S1x2048x128_S2048x128 (ix2 r k) = x (ix3 (0 : Fin 1) r k) :=
    (shapeCast_dropUnit_apply ![2048, 128] x shapeCasts_S1x2048x128_S2048x128 (ix2 r k)).trans (congrArg x (funext fun a => by
      match a with
      | ⟨0, _⟩ => rfl
      | ⟨1, _⟩ => rfl
      | ⟨2, _⟩ => rfl))
  have hw : shapeCast S128x16 w shapeCasts_S1x128x16_S128x16 (ix2 k e) = w (ix3 (0 : Fin 1) k e) :=
    (shapeCast_dropUnit_apply ![128, 16] w shapeCasts_S1x128x16_S128x16 (ix2 k e)).trans (congrArg w (funext fun a => by
      match a with
      | ⟨0, _⟩ => rfl
      | ⟨1, _⟩ => rfl
      | ⟨2, _⟩ => rfl))
  rw [hx, hw]

/-! ## Where each window's block sits in its array -/

/-- The index maps over the grid: at point `t` tensor window k has block index (t, k, 0), the weight's and the
    result's (t, 0, 0). -/
theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 3) = t.val ∧ win0_1.index t (1 : Fin 3) = 1 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 2 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 3 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 4 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 5 ∧ win0_5.index t (2 : Fin 3) = 0 :=
  (by decide +kernel : ∀ t : Fin grid0.N, _)
theorem idx_6 : ∀ t : Fin cfg0.N, win0_6.index t (0 : Fin 3) = t.val ∧ win0_6.index t (1 : Fin 3) = 6 ∧ win0_6.index t (2 : Fin 3) = 0 :=
  (by decide +kernel : ∀ t : Fin grid0.N, _)
theorem idx_7 : ∀ t : Fin cfg0.N, win0_7.index t (0 : Fin 3) = t.val ∧ win0_7.index t (1 : Fin 3) = 7 ∧ win0_7.index t (2 : Fin 3) = 0 :=
  (by decide +kernel : ∀ t : Fin grid0.N, _)
theorem idx_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)

variable (m : (ℓ : Loc nD τ sig) → Buf (Elt Ideal) ℓ) (ρ : Dev nD → PrngReg)

/-- Slab k at point t, row r, feature f is the tensor at (t, 2048·k + r, f). -/
theorem slab0_at (c : Dev nD) (t : Fin cfg0.N) (r : Fin 2048) (k : Fin 128) (g : Fin 16) (b : Fin 16384)
    (hg : g.val = t.val) (hb : b.val = 2048 * 0 + r.val) :
    blockAt m c 0 t (ix3 (0 : Fin 1) r k) = V m c main_arg0 (ix3 g b k) := by
  obtain ⟨e0, e1, e2⟩ := idx_0 t
  show V m c main_arg0 (((cfg0.win 0).blk t).view.emb (ix3 (0 : Fin 1) r k)) = V m c main_arg0 (ix3 g b k)
  refine congrArg _ (funext fun a => Fin.ext ?_)
  match a with
  | ⟨0, _⟩ => show win0_0.index t (0 : Fin 3) * 1 + 1 * 0 = g.val; omega
  | ⟨1, _⟩ => show win0_0.index t (1 : Fin 3) * 2048 + 1 * r.val = b.val; omega
  | ⟨2, _⟩ => show win0_0.index t (2 : Fin 3) * 128 + 1 * k.val = k.val; omega
theorem slab1_at (c : Dev nD) (t : Fin cfg0.N) (r : Fin 2048) (k : Fin 128) (g : Fin 16) (b : Fin 16384)
    (hg : g.val = t.val) (hb : b.val = 2048 * 1 + r.val) :
    blockAt m c 1 t (ix3 (0 : Fin 1) r k) = V m c main_arg0 (ix3 g b k) := by
  obtain ⟨e0, e1, e2⟩ := idx_1 t
  show V m c main_arg0 (((cfg0.win 1).blk t).view.emb (ix3 (0 : Fin 1) r k)) = V m c main_arg0 (ix3 g b k)
  refine congrArg _ (funext fun a => Fin.ext ?_)
  match a with
  | ⟨0, _⟩ => show win0_1.index t (0 : Fin 3) * 1 + 1 * 0 = g.val; omega
  | ⟨1, _⟩ => show win0_1.index t (1 : Fin 3) * 2048 + 1 * r.val = b.val; omega
  | ⟨2, _⟩ => show win0_1.index t (2 : Fin 3) * 128 + 1 * k.val = k.val; omega
theorem slab2_at (c : Dev nD) (t : Fin cfg0.N) (r : Fin 2048) (k : Fin 128) (g : Fin 16) (b : Fin 16384)
    (hg : g.val = t.val) (hb : b.val = 2048 * 2 + r.val) :
    blockAt m c 2 t (ix3 (0 : Fin 1) r k) = V m c main_arg0 (ix3 g b k) := by
  obtain ⟨e0, e1, e2⟩ := idx_2 t
  show V m c main_arg0 (((cfg0.win 2).blk t).view.emb (ix3 (0 : Fin 1) r k)) = V m c main_arg0 (ix3 g b k)
  refine congrArg _ (funext fun a => Fin.ext ?_)
  match a with
  | ⟨0, _⟩ => show win0_2.index t (0 : Fin 3) * 1 + 1 * 0 = g.val; omega
  | ⟨1, _⟩ => show win0_2.index t (1 : Fin 3) * 2048 + 1 * r.val = b.val; omega
  | ⟨2, _⟩ => show win0_2.index t (2 : Fin 3) * 128 + 1 * k.val = k.val; omega
theorem slab3_at (c : Dev nD) (t : Fin cfg0.N) (r : Fin 2048) (k : Fin 128) (g : Fin 16) (b : Fin 16384)
    (hg : g.val = t.val) (hb : b.val = 2048 * 3 + r.val) :
    blockAt m c 3 t (ix3 (0 : Fin 1) r k) = V m c main_arg0 (ix3 g b k) := by
  obtain ⟨e0, e1, e2⟩ := idx_3 t
  show V m c main_arg0 (((cfg0.win 3).blk t).view.emb (ix3 (0 : Fin 1) r k)) = V m c main_arg0 (ix3 g b k)
  refine congrArg _ (funext fun a => Fin.ext ?_)
  match a with
  | ⟨0, _⟩ => show win0_3.index t (0 : Fin 3) * 1 + 1 * 0 = g.val; omega
  | ⟨1, _⟩ => show win0_3.index t (1 : Fin 3) * 2048 + 1 * r.val = b.val; omega
  | ⟨2, _⟩ => show win0_3.index t (2 : Fin 3) * 128 + 1 * k.val = k.val; omega
theorem slab4_at (c : Dev nD) (t : Fin cfg0.N) (r : Fin 2048) (k : Fin 128) (g : Fin 16) (b : Fin 16384)
    (hg : g.val = t.val) (hb : b.val = 2048 * 4 + r.val) :
    blockAt m c 4 t (ix3 (0 : Fin 1) r k) = V m c main_arg0 (ix3 g b k) := by
  obtain ⟨e0, e1, e2⟩ := idx_4 t
  show V m c main_arg0 (((cfg0.win 4).blk t).view.emb (ix3 (0 : Fin 1) r k)) = V m c main_arg0 (ix3 g b k)
  refine congrArg _ (funext fun a => Fin.ext ?_)
  match a with
  | ⟨0, _⟩ => show win0_4.index t (0 : Fin 3) * 1 + 1 * 0 = g.val; omega
  | ⟨1, _⟩ => show win0_4.index t (1 : Fin 3) * 2048 + 1 * r.val = b.val; omega
  | ⟨2, _⟩ => show win0_4.index t (2 : Fin 3) * 128 + 1 * k.val = k.val; omega
theorem slab5_at (c : Dev nD) (t : Fin cfg0.N) (r : Fin 2048) (k : Fin 128) (g : Fin 16) (b : Fin 16384)
    (hg : g.val = t.val) (hb : b.val = 2048 * 5 + r.val) :
    blockAt m c 5 t (ix3 (0 : Fin 1) r k) = V m c main_arg0 (ix3 g b k) := by
  obtain ⟨e0, e1, e2⟩ := idx_5 t
  show V m c main_arg0 (((cfg0.win 5).blk t).view.emb (ix3 (0 : Fin 1) r k)) = V m c main_arg0 (ix3 g b k)
  refine congrArg _ (funext fun a => Fin.ext ?_)
  match a with
  | ⟨0, _⟩ => show win0_5.index t (0 : Fin 3) * 1 + 1 * 0 = g.val; omega
  | ⟨1, _⟩ => show win0_5.index t (1 : Fin 3) * 2048 + 1 * r.val = b.val; omega
  | ⟨2, _⟩ => show win0_5.index t (2 : Fin 3) * 128 + 1 * k.val = k.val; omega
theorem slab6_at (c : Dev nD) (t : Fin cfg0.N) (r : Fin 2048) (k : Fin 128) (g : Fin 16) (b : Fin 16384)
    (hg : g.val = t.val) (hb : b.val = 2048 * 6 + r.val) :
    blockAt m c 6 t (ix3 (0 : Fin 1) r k) = V m c main_arg0 (ix3 g b k) := by
  obtain ⟨e0, e1, e2⟩ := idx_6 t
  show V m c main_arg0 (((cfg0.win 6).blk t).view.emb (ix3 (0 : Fin 1) r k)) = V m c main_arg0 (ix3 g b k)
  refine congrArg _ (funext fun a => Fin.ext ?_)
  match a with
  | ⟨0, _⟩ => show win0_6.index t (0 : Fin 3) * 1 + 1 * 0 = g.val; omega
  | ⟨1, _⟩ => show win0_6.index t (1 : Fin 3) * 2048 + 1 * r.val = b.val; omega
  | ⟨2, _⟩ => show win0_6.index t (2 : Fin 3) * 128 + 1 * k.val = k.val; omega
theorem slab7_at (c : Dev nD) (t : Fin cfg0.N) (r : Fin 2048) (k : Fin 128) (g : Fin 16) (b : Fin 16384)
    (hg : g.val = t.val) (hb : b.val = 2048 * 7 + r.val) :
    blockAt m c 7 t (ix3 (0 : Fin 1) r k) = V m c main_arg0 (ix3 g b k) := by
  obtain ⟨e0, e1, e2⟩ := idx_7 t
  show V m c main_arg0 (((cfg0.win 7).blk t).view.emb (ix3 (0 : Fin 1) r k)) = V m c main_arg0 (ix3 g b k)
  refine congrArg _ (funext fun a => Fin.ext ?_)
  match a with
  | ⟨0, _⟩ => show win0_7.index t (0 : Fin 3) * 1 + 1 * 0 = g.val; omega
  | ⟨1, _⟩ => show win0_7.index t (1 : Fin 3) * 2048 + 1 * r.val = b.val; omega
  | ⟨2, _⟩ => show win0_7.index t (2 : Fin 3) * 128 + 1 * k.val = k.val; omega

/-- The weight block at point t, feature f, column e is the weights at (t, f, e). -/
theorem weight_at (c : Dev nD) (t : Fin cfg0.N) (k : Fin 128) (e : Fin 16) (g : Fin 16) (hg : g.val = t.val) :
    blockAt m c 8 t (ix3 (0 : Fin 1) k e) = V m c main_arg1 (ix3 g k e) := by
  obtain ⟨e0, e1, e2⟩ := idx_8 t
  show V m c main_arg1 (((cfg0.win 8).blk t).view.emb (ix3 (0 : Fin 1) k e)) = V m c main_arg1 (ix3 g k e)
  refine congrArg _ (funext fun a => Fin.ext ?_)
  match a with
  | ⟨0, _⟩ => show win0_8.index t (0 : Fin 3) * 1 + 1 * 0 = g.val; omega
  | ⟨1, _⟩ => show win0_8.index t (1 : Fin 3) * 128 + 1 * k.val = k.val; omega
  | ⟨2, _⟩ => show win0_8.index t (2 : Fin 3) * 16 + 1 * e.val = e.val; omega

/-! ## Every piece of the result block is the embedding on its rows -/

/-- The embedding of the tensor and the weights as the region finds them, read through the result window's block at
    point `t`: what the block written back at `t` must be. -/
abbrev blockOfEmbed (c : Dev nD) (t : Fin cfg0.N) : S1x16384x16.Idx → Elt Ideal .f32 :=
  ((cfg0.win 9).blk t).view.read (Elt Ideal) (Cert.Embed.embed (V m c main_arg0) (V m c main_arg1))

/-- Rows 0 … 2047. -/
theorem piece0 (c : Dev nD) (t : Fin cfg0.N) (x : S1x2048x16.Idx) :
    k0_pay7 (View.ld (blockAt m c 8 t) rWeight) (View.ld (blockAt m c 0 t) rSlab) x
      = blockOfEmbed m c t (rRows0.emb x) := by
  rw [store0_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows0.emb (ix3 (0 : Fin 1) r e))
      = ix3 (⟨t.val, ht⟩ : Fin 16) (⟨2048 * 0 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (0 + 1 * r.val) = 2048 * 0 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows0.emb (ix3 (0 : Fin 1) r e)))
  rw [hi, Cert.Embed.embed_apply]
  refine Finset.sum_congr rfl fun k _ => ?_
  rw [slab0_at m c t r k ⟨t.val, ht⟩ ⟨2048 * 0 + r.val, by omega⟩ rfl rfl, weight_at m c t k e ⟨t.val, ht⟩ rfl]

/-- Rows 2048 … 4095. -/
theorem piece1 (c : Dev nD) (t : Fin cfg0.N) (x : S1x2048x16.Idx) :
    k0_pay8 (View.ld (blockAt m c 8 t) rWeight) (View.ld (blockAt m c 1 t) rSlab) x
      = blockOfEmbed m c t (rRows1.emb x) := by
  rw [store1_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows1.emb (ix3 (0 : Fin 1) r e))
      = ix3 (⟨t.val, ht⟩ : Fin 16) (⟨2048 * 1 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (2048 + 1 * r.val) = 2048 * 1 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows1.emb (ix3 (0 : Fin 1) r e)))
  rw [hi, Cert.Embed.embed_apply]
  refine Finset.sum_congr rfl fun k _ => ?_
  rw [slab1_at m c t r k ⟨t.val, ht⟩ ⟨2048 * 1 + r.val, by omega⟩ rfl rfl, weight_at m c t k e ⟨t.val, ht⟩ rfl]

/-- Rows 4096 … 6143. -/
theorem piece2 (c : Dev nD) (t : Fin cfg0.N) (x : S1x2048x16.Idx) :
    k0_pay9 (View.ld (blockAt m c 8 t) rWeight) (View.ld (blockAt m c 2 t) rSlab) x
      = blockOfEmbed m c t (rRows2.emb x) := by
  rw [store2_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows2.emb (ix3 (0 : Fin 1) r e))
      = ix3 (⟨t.val, ht⟩ : Fin 16) (⟨2048 * 2 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (4096 + 1 * r.val) = 2048 * 2 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows2.emb (ix3 (0 : Fin 1) r e)))
  rw [hi, Cert.Embed.embed_apply]
  refine Finset.sum_congr rfl fun k _ => ?_
  rw [slab2_at m c t r k ⟨t.val, ht⟩ ⟨2048 * 2 + r.val, by omega⟩ rfl rfl, weight_at m c t k e ⟨t.val, ht⟩ rfl]

/-- Rows 6144 … 8191. -/
theorem piece3 (c : Dev nD) (t : Fin cfg0.N) (x : S1x2048x16.Idx) :
    k0_pay1 (k0_pay10 (View.ld (blockAt m c 8 t) rWeight) (View.ld (blockAt m c 3 t) rSlab)) x
      = blockOfEmbed m c t (rRows3.emb x) := by
  rw [store3_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows3.emb (ix3 (0 : Fin 1) r e))
      = ix3 (⟨t.val, ht⟩ : Fin 16) (⟨2048 * 3 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (6144 + 1 * r.val) = 2048 * 3 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows3.emb (ix3 (0 : Fin 1) r e)))
  rw [hi, Cert.Embed.embed_apply]
  refine Finset.sum_congr rfl fun k _ => ?_
  rw [slab3_at m c t r k ⟨t.val, ht⟩ ⟨2048 * 3 + r.val, by omega⟩ rfl rfl, weight_at m c t k e ⟨t.val, ht⟩ rfl]

/-- Rows 8192 … 10239. -/
theorem piece4 (c : Dev nD) (t : Fin cfg0.N) (x : S1x2048x16.Idx) :
    k0_pay2 (k0_pay6 (View.ld (blockAt m c 8 t) rWeight)) (View.ld (blockAt m c 4 t) rSlab) x
      = blockOfEmbed m c t (rRows4.emb x) := by
  rw [store4_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows4.emb (ix3 (0 : Fin 1) r e))
      = ix3 (⟨t.val, ht⟩ : Fin 16) (⟨2048 * 4 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (8192 + 1 * r.val) = 2048 * 4 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows4.emb (ix3 (0 : Fin 1) r e)))
  rw [hi, Cert.Embed.embed_apply]
  refine Finset.sum_congr rfl fun k _ => ?_
  rw [slab4_at m c t r k ⟨t.val, ht⟩ ⟨2048 * 4 + r.val, by omega⟩ rfl rfl, weight_at m c t k e ⟨t.val, ht⟩ rfl]

/-- Rows 10240 … 12287. -/
theorem piece5 (c : Dev nD) (t : Fin cfg0.N) (x : S1x2048x16.Idx) :
    k0_pay3 (k0_pay6 (View.ld (blockAt m c 8 t) rWeight)) (View.ld (blockAt m c 5 t) rSlab) x
      = blockOfEmbed m c t (rRows5.emb x) := by
  rw [store5_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows5.emb (ix3 (0 : Fin 1) r e))
      = ix3 (⟨t.val, ht⟩ : Fin 16) (⟨2048 * 5 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (10240 + 1 * r.val) = 2048 * 5 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows5.emb (ix3 (0 : Fin 1) r e)))
  rw [hi, Cert.Embed.embed_apply]
  refine Finset.sum_congr rfl fun k _ => ?_
  rw [slab5_at m c t r k ⟨t.val, ht⟩ ⟨2048 * 5 + r.val, by omega⟩ rfl rfl, weight_at m c t k e ⟨t.val, ht⟩ rfl]

/-- Rows 12288 … 14335. -/
theorem piece6 (c : Dev nD) (t : Fin cfg0.N) (x : S1x2048x16.Idx) :
    k0_pay4 (k0_pay6 (View.ld (blockAt m c 8 t) rWeight)) (View.ld (blockAt m c 6 t) rSlab) x
      = blockOfEmbed m c t (rRows6.emb x) := by
  rw [store6_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows6.emb (ix3 (0 : Fin 1) r e))
      = ix3 (⟨t.val, ht⟩ : Fin 16) (⟨2048 * 6 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (12288 + 1 * r.val) = 2048 * 6 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows6.emb (ix3 (0 : Fin 1) r e)))
  rw [hi, Cert.Embed.embed_apply]
  refine Finset.sum_congr rfl fun k _ => ?_
  rw [slab6_at m c t r k ⟨t.val, ht⟩ ⟨2048 * 6 + r.val, by omega⟩ rfl rfl, weight_at m c t k e ⟨t.val, ht⟩ rfl]

/-- Rows 14336 … 16383. -/
theorem piece7 (c : Dev nD) (t : Fin cfg0.N) (x : S1x2048x16.Idx) :
    k0_pay5 (k0_pay6 (View.ld (blockAt m c 8 t) rWeight)) (View.ld (blockAt m c 7 t) rSlab) x
      = blockOfEmbed m c t (rRows7.emb x) := by
  rw [store7_eq, View.ld_unit_zero (S := S1x128x16) zeros3, View.ld_unit_zero (S := S1x2048x128) zeros3]
  have h0 : x 0 = (0 : Fin 1) := Fin.ext (Nat.lt_one_iff.mp (x 0).isLt)
  obtain ⟨r, e, rfl⟩ : ∃ (r : Fin 2048) (e : Fin 16), x = ix3 (0 : Fin 1) r e :=
    ⟨x 1, x 2, (eq_ix3 x).trans (congrArg (fun z => ix3 z (x 1) (x 2)) h0)⟩
  rw [slabProduct_apply]
  obtain ⟨e0, e1, e2⟩ := idx_9 t
  have ht : t.val < 16 := lt_of_lt_of_eq t.isLt N_0
  have hr : r.val < 2048 := r.isLt
  have hi : ((cfg0.win 9).blk t).view.emb (rRows7.emb (ix3 (0 : Fin 1) r e))
      = ix3 (⟨t.val, ht⟩ : Fin 16) (⟨2048 * 7 + r.val, by omega⟩ : Fin 16384) e := by
    funext a; apply Fin.ext
    match a with
    | ⟨0, _⟩ => show win0_9.index t (0 : Fin 3) * 1 + 1 * (0 + 1 * 0) = t.val; omega
    | ⟨1, _⟩ => show win0_9.index t (1 : Fin 3) * 16384 + 1 * (14336 + 1 * r.val) = 2048 * 7 + r.val; omega
    | ⟨2, _⟩ => show win0_9.index t (2 : Fin 3) * 16 + 1 * (0 + 1 * e.val) = e.val; omega
  show _ = Cert.Embed.embed (V m c main_arg0) (V m c main_arg1) (((cfg0.win 9).blk t).view.emb (rRows7.emb (ix3 (0 : Fin 1) r e)))
  rw [hi, Cert.Embed.embed_apply]
  refine Finset.sum_congr rfl fun k _ => ?_
  rw [slab7_at m c t r k ⟨t.val, ht⟩ ⟨2048 * 7 + r.val, by omega⟩ rfl rfl, weight_at m c t k e ⟨t.val, ht⟩ rfl]

/-! ## From the blocks to the array -/

/-- WHAT POINT `t` WRITES BACK is block `t` of the embedding: the stacked products are a canon of eight pieces, each
    the embedding on its rows, and the rows cover the block. -/
theorem flushed_eq (c : Dev nD) (t : Fin cfg0.N) :
    (dats (F := Ideal) m 0 c).flushed 9 t = blockOfEmbed m c t := by
  show (cfg0.win 9).cut (grid0.coords t) ((dats m 0 c).after 9 t) = _
  rw [after_9]
  unfold stacked
  funext y
  show View.canon _ y = _
  refine View.canon_apply_of_pieces (blockOfEmbed m c t) _ ?_ y (rows_cover _ _ _ _ _ _ _ _ y)
  intro p hp x
  simp only [List.mem_cons, List.not_mem_nil, or_false] at hp
  rcases hp with rfl | rfl | rfl | rfl | rfl | rfl | rfl | rfl
  · exact piece7 m c t x
  · exact piece6 m c t x
  · exact piece5 m c t x
  · exact piece4 m c t x
  · exact piece3 m c t x
  · exact piece2 m c t x
  · exact piece1 m c t x
  · exact piece0 m c t x

/-- An index of the result array is in point `t`'s block iff each coordinate is in the block's range on its axis. -/
theorem mem_block (t : Fin cfg0.N) (i : S16x16384x16.Idx) :
    i ∈ ((cfg0.win 9).blk t).view.set ↔ ∀ a : Fin 3, win0_9.index t a * S1x16384x16.size a ≤ (i a).val
      ∧ (i a).val < win0_9.index t a * S1x16384x16.size a + S1x16384x16.size a := by
  show i ∈ ((View.whole main_v0).slice (win0_9.rect t)).set ↔ _
  rw [View.set_slice_whole, Rect.mem_set_unit]
  exact Iff.rfl

/-- The sixteen blocks tile the result array: an index lies in the block of the point its first coordinate names. -/
theorem blocks_cover (i : S16x16384x16.Idx) :
    ∃ t : Fin cfg0.N, (cfg0.win 9).flush t = true ∧ i ∈ ((cfg0.win 9).blk t).view.set := by
  have hi0 : (i 0).val < 16 := (i 0).isLt
  have hi1 : (i 1).val < 16384 := (i 1).isLt
  have hi2 : (i 2).val < 16 := (i 2).isLt
  obtain ⟨t, htv⟩ : ∃ t : Fin cfg0.N, t.val = (i 0).val := ⟨⟨(i 0).val, lt_of_lt_of_eq hi0 N_0.symm⟩, rfl⟩
  obtain ⟨e0, e1, e2⟩ := idx_9 t
  refine ⟨t, flush0_9 t, ?_⟩
  rw [mem_block]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 16384 ≤ (i 1).val ∧ (i 1).val < win0_9.index t (1 : Fin 3) * 16384 + 16384; omega
  | ⟨2, _⟩ => show win0_9.index t (2 : Fin 3) * 16 ≤ (i 2).val ∧ (i 2).val < win0_9.index t (2 : Fin 3) * 16 + 16; omega

/-- THE RESULT ARRAY after the run: the embedding of the tensor and the weights as launched. -/
theorem final_result (c : Dev nD) :
    (dats (F := Ideal) m 0 c).arrAt 9 cfg0.N = Cert.Embed.embed (V m c main_arg0) (V m c main_arg1) :=
  (dats m 0 c).arrAt_eq_of_cover 9 _ (fun t _ => flushed_eq m c t) blocks_cover

/-- The kernel's run, read: the result array ends at the embedding of the arguments, the arguments unchanged. -/
theorem run_value : θ_run defs (onTc (τ := τ) (main (F := Ideal))) ⟨m, fun _ => 0, ρ⟩ (fun r => ∀ c : Dev nD,
      r.2.mem ((c.tc : Thread nD τ).loc main_v0)
        = Cert.Embed.embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_result m c), (h c).2⟩) (run_named m ρ)

end Cert.KernelIdeal.Embed

end
-- ==== Proof.EmbedReference.lean ====
/-
  The reference program computes the embedding.

  The reference is one batched contraction: genome is the batch axis of both operands, the tensor's feature axis is
  contracted with the weights' row axis. At the exact reals its entry at (g, b, e) is the sum over the 128 features f
  of tensor[g, b, f] · W[g, f, e], which is the embedding's entry by definition; only the spelling of the two
  operand indices differs.
-/
import proofs.«110623_g1614907703996_cont_week2b_559_4_alg».proof.Proof.Gen.ReferenceIdeal.Read
import proofs.«110623_g1614907703996_cont_week2b_559_4_alg».proof.Proof.EmbedSpec

noncomputable section
open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

/-- The contraction's left operand index at result index `i` and feature `k` is (i₀, i₁, k), -/
theorem left_index (i : S16x16384x16.Idx) (k : Fin 128) : Read.lidx_main_v0 i k = ix3 (i 0) (i 1) k :=
  funext fun a => by
    match a with
    | ⟨0, _⟩ => rfl
    | ⟨1, _⟩ => rfl
    | ⟨2, _⟩ => rfl

/-- and the right operand's (i₀, k, i₂). -/
theorem right_index (i : S16x16384x16.Idx) (k : Fin 128) : Read.ridx_main_v0 i k = ix3 (i 0) k (i 2) :=
  funext fun a => by
    match a with
    | ⟨0, _⟩ => rfl
    | ⟨1, _⟩ => rfl
    | ⟨2, _⟩ => rfl

/-- The reference's one operation, at the exact reals, is the embedding of its two operands. -/
theorem stage_is_embed (x0 : (⟨S16x16384x128, .f32⟩ : BufTy).Contents (Elt Ideal)) (x1 : (⟨S16x128x16, .f32⟩ : BufTy).Contents (Elt Ideal)) :
    Read.val_main_v0 (F := Ideal) x0 x1 = Cert.Embed.embed x0 x1 := by
  funext i
  rw [Read.val_main_v0_apply]
  show _ = ∑ k : Fin 128, x0 (ix3 (i 0) (i 1) k) * x1 (ix3 (i 0) k (i 2))
  exact Finset.sum_congr rfl fun k _ =>
    congrArg₂ (· * ·) (congrArg x0 (left_index i k)) (congrArg x1 (right_index i k))

end Cert.ReferenceIdeal.RefValue

end
-- ==== Proof.lean ====
/-
  The batched linear embedding kernel against its reference:  out[g, b, e] = Σ_f tensor[g, b, f] · W[g, f, e]
  for sixteen genomes, 16384 rows, 128 features and 16 embedding coordinates.

  The kernel visits the genomes one grid point at a time. At genome g it is handed tensor[g] as eight slabs of 2048
  rows — eight windows on the one tensor array, so that eight transfers stream it side by side —, the weight W[g], and
  the block out[g]; it multiplies each slab by the weight on the matrix unit, from a zero accumulator, and stores
  the eight products over the block's eight row ranges. The reference is a single batched contraction.

  The five claims.
  * The three frames. The reference is straight-line host code and its run is read off its one operation. The
    kernel's run (the printed program, and the same program read at the exact reals) is one pipelined region: because
    eight windows read one array, the array's full share is dealt to them at the region's entry — seven successive
    halves and the remainder —; the body, run symbolically at a grid point, takes its ten buffers to the eight
    stacked products; and the pipeline's launch gives that every fair execution ends, faults nowhere, and leaves the
    tensor and the weights as they were.
  * The idealized kernel is the kernel's own text read at the exact reals: nothing was rewritten, nothing to preserve.
  * At the exact reals the two programs agree. A matrix product into a zero accumulator is the plain sum over the
    contracted axis, so row r of slab k, column e of the kernel's block at genome g is
    Σ_f tensor[g, 2048·k + r, f] · W[g, f, e]; the eight row ranges tile the block and the sixteen blocks tile the
    result, so the kernel's result array is the embedding entry by entry. The reference's contraction is the same
    sum at every entry. Only the grouping of the work differs between the two, never the order inside a sum, so the
    inputs' finiteness is not used.
-/
import proofs.«110623_g1614907703996_cont_week2b_559_4_alg».proof.Defs
import proofs.«110623_g1614907703996_cont_week2b_559_4_alg».proof.Proof.Gen.Kernel
import proofs.«110623_g1614907703996_cont_week2b_559_4_alg».proof.Proof.Gen.KernelIdeal
import proofs.«110623_g1614907703996_cont_week2b_559_4_alg».proof.Proof.Gen.ReferenceIdeal
import proofs.«110623_g1614907703996_cont_week2b_559_4_alg».proof.Proof.Gen.ReferenceIdeal.Run
import proofs.«110623_g1614907703996_cont_week2b_559_4_alg».proof.Proof.Gen.ReferenceIdeal.Read
import proofs.«110623_g1614907703996_cont_week2b_559_4_alg».proof.Proof.Gen.Pre_finite_inputs
import proofs.«110623_g1614907703996_cont_week2b_559_4_alg».proof.Proof.Words.Run
import proofs.«110623_g1614907703996_cont_week2b_559_4_alg».proof.Proof.Exact.Value
import proofs.«110623_g1614907703996_cont_week2b_559_4_alg».proof.Proof.EmbedReference
import Idealize.ShloMosaic.Adequacy
import Idealize.ShloMosaic.Init

noncomputable section

namespace Cert.Proof

open Idealize.ShloMosaic Idealize.ShloMosaic.TcCoe Idealize.SL.Sem

/-- The printed kernel runs to the end, faults nowhere, and leaves the tensor and the weights unchanged. -/
theorem frame_kernel : Cert.frame_Kernel := fun m ρ _ => Cert.Kernel.Embed.frame m ρ

/-- The same of the kernel read at the exact reals. -/
theorem frame_kernelIdeal : Cert.frame_KernelIdeal := fun m ρ _ => Cert.KernelIdeal.Embed.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories that agree on the tensor and the weights both programs end with the result array at the embedding
    of those two arrays: the kernel by its run read block by block, the reference by its one contraction. -/
theorem algebraic : Cert.algebraic_KernelIdeal_ReferenceIdeal := by
  intro m ρ m' ρ' _ hagree
  refine ⟨fun c => Cert.Embed.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Embed.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.stage_is_embed,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
